-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x256x256 : Shape := ⟨4, ![32, 16, 256, 256]⟩
abbrev S32x128 : Shape := ⟨2, ![32, 128]⟩
abbrev S2x65536 : Shape := ⟨2, ![2, 65536]⟩
abbrev S256x256 : Shape := ⟨2, ![256, 256]⟩
abbrev S256 : Shape := ⟨1, ![256]⟩
abbrev S_ : Shape := ⟨0, ![]⟩

class Facts : Prop where
  bcast_S_S32x16x256x256 : S_.BroadcastsInDim S32x16x256x256 (![] : Fin 0 → Fin S32x16x256x256.rank)
  reducesTo_S32x16x256x256_S_d0_1_2_3 : S32x16x256x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x16x256x256 .f32) (main_arg1 : IVec S32x128 32) (main_arg2 : IVec S2x65536 32) (main_arg3 : FVec F S256x256 .f32) (main_arg4 : FVec F S256 .f32) (main_arg5 : FVec F S256x256 .f32) (main_arg6 : FVec F S256 .f32) : IVec S_ 1 :=
  let main_v0 : FVec F S32x16x256x256 .f32 := Host.absf main_arg0
  let main_cst : FVec F S_ .f32 := constant S_ .f32 0x7F800000#32
  let main_v1 : FVec F S32x16x256x256 .f32 := broadcastInDim S32x16x256x256 ![] bcast_S_S32x16x256x256 main_cst
  let main_v2 : IVec S32x16x256x256 1 := cmpf .olt main_v0 main_v1
  let main_c : IVec S_ 1 := constantI S_ 1 1#1
  let main_v3 : IVec S_ 1 := (fun x v => Host.reduce IntOp.andi x v reducesTo_S32x16x256x256_S_d0_1_2_3 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S32x16x256x256 : Shape := ⟨4, ![32, 16, 256, 256]⟩
abbrev S32x128 : Shape := ⟨2, ![32, 128]⟩
abbrev S2x65536 : Shape := ⟨2, ![2, 65536]⟩
abbrev S256x256 : Shape := ⟨2, ![256, 256]⟩
abbrev S256 : Shape := ⟨1, ![256]⟩
abbrev S32x256x256 : Shape := ⟨3, ![32, 256, 256]⟩
abbrev S1x16x256x256 : Shape := ⟨4, ![1, 16, 256, 256]⟩
abbrev S1x256x256 : Shape := ⟨3, ![1, 256, 256]⟩
abbrev S16x256x256 : Shape := ⟨3, ![16, 256, 256]⟩
abbrev S_ : Shape := ⟨0, ![]⟩
abbrev S32x128x1 : Shape := ⟨3, ![32, 128, 1]⟩
abbrev S32x128x256 : Shape := ⟨3, ![32, 128, 256]⟩
abbrev S4096x256 : Shape := ⟨2, ![4096, 256]⟩
abbrev S4096 : Shape := ⟨1, ![4096]⟩
abbrev S1x65536 : Shape := ⟨2, ![1, 65536]⟩
abbrev S65536 : Shape := ⟨1, ![65536]⟩
abbrev S69632 : Shape := ⟨1, ![69632]⟩
abbrev S69632x1 : Shape := ⟨2, ![69632, 1]⟩
abbrev S1024x256 : Shape := ⟨2, ![1024, 256]⟩
abbrev S69632x256 : Shape := ⟨2, ![69632, 256]⟩
abbrev S1x256 : Shape := ⟨2, ![1, 256]⟩
abbrev S32 : Shape := ⟨1, ![32]⟩
abbrev S32x256 : Shape := ⟨2, ![32, 256]⟩
abbrev S4096x1 : Shape := ⟨2, ![4096, 1]⟩

abbrev nBuf : Space → Nat
  | .hbm => 104
  | .vmem => 14
  | .smem => 0
  | _ => 0

abbrev bufTy : (tb : Table) → Fin (tcTables nBuf tb) → BufTy
  | .hbm, ⟨0, _⟩ => ⟨S32x16x256x256, .f32⟩
  | .hbm, ⟨1, _⟩ => ⟨S32x128, .i32⟩
  | .hbm, ⟨2, _⟩ => ⟨S2x65536, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S32x256x256, .f32⟩
  | .hbm, ⟨8, _⟩ => ⟨S_, .i32⟩
  | .hbm, ⟨9, _⟩ => ⟨S32x128, .i32⟩
  | .hbm, ⟨10, _⟩ => ⟨S32x128, .i1⟩
  | .hbm, ⟨11, _⟩ => ⟨S_, .i32⟩
  | .hbm, ⟨12, _⟩ => ⟨S32x128, .i32⟩
  | .hbm, ⟨13, _⟩ => ⟨S32x128, .i32⟩
  | .hbm, ⟨14, _⟩ => ⟨S32x128, .i32⟩
  | .hbm, ⟨15, _⟩ => ⟨S32x128x1, .i32⟩
  | .hbm, ⟨16, _⟩ => ⟨S32x128x256, .f32⟩
  | .hbm, ⟨17, _⟩ => ⟨S4096x256, .f32⟩
  | .hbm, ⟨18, _⟩ => ⟨S4096, .i32⟩
  | .hbm, ⟨19, _⟩ => ⟨S1x65536, .i32⟩
  | .hbm, ⟨20, _⟩ => ⟨S65536, .i32⟩
  | .hbm, ⟨21, _⟩ => ⟨S69632, .i32⟩
  | .hbm, ⟨22, _⟩ => ⟨S1x65536, .i32⟩
  | .hbm, ⟨23, _⟩ => ⟨S65536, .i32⟩
  | .hbm, ⟨24, _⟩ => ⟨S69632, .i32⟩
  | .hbm, ⟨25, _⟩ => ⟨S_, .f32⟩
  | .hbm, ⟨26, _⟩ => ⟨S69632, .f32⟩
  | .hbm, ⟨27, _⟩ => ⟨S_, .f32⟩
  | .hbm, ⟨28, _⟩ => ⟨S4096, .f32⟩
  | .hbm, ⟨29, _⟩ => ⟨S69632x1, .i32⟩
  | .hbm, ⟨30, _⟩ => ⟨S4096, .f32⟩
  | .hbm, ⟨31, _⟩ => ⟨S4096, .f32⟩
  | .hbm, ⟨32, _⟩ => ⟨S_, .i32⟩
  | .hbm, ⟨33, _⟩ => ⟨S69632, .i32⟩
  | .hbm, ⟨34, _⟩ => ⟨S69632, .i1⟩
  | .hbm, ⟨35, _⟩ => ⟨S_, .i32⟩
  | .hbm, ⟨36, _⟩ => ⟨S69632, .i32⟩
  | .hbm, ⟨37, _⟩ => ⟨S69632, .i32⟩
  | .hbm, ⟨38, _⟩ => ⟨S69632, .i32⟩
  | .hbm, ⟨39, _⟩ => ⟨S69632x1, .i32⟩
  | .hbm, ⟨40, _⟩ => ⟨S69632, .f32⟩
  | .hbm, ⟨41, _⟩ => ⟨S_, .i32⟩
  | .hbm, ⟨42, _⟩ => ⟨S69632, .i32⟩
  | .hbm, ⟨43, _⟩ => ⟨S69632, .i1⟩
  | .hbm, ⟨44, _⟩ => ⟨S_, .i32⟩
  | .hbm, ⟨45, _⟩ => ⟨S69632, .i32⟩
  | .hbm, ⟨46, _⟩ => ⟨S69632, .i32⟩
  | .hbm, ⟨47, _⟩ => ⟨S69632, .i32⟩
  | .hbm, ⟨48, _⟩ => ⟨S69632x1, .i32⟩
  | .hbm, ⟨49, _⟩ => ⟨S69632, .f32⟩
  | .hbm, ⟨50, _⟩ => ⟨S69632, .f32⟩
  | .hbm, ⟨51, _⟩ => ⟨S4096x256, .f32⟩
  | .hbm, ⟨52, _⟩ => ⟨S_, .i32⟩
  | .hbm, ⟨53, _⟩ => ⟨S69632, .i32⟩
  | .hbm, ⟨54, _⟩ => ⟨S69632, .i1⟩
  | .hbm, ⟨55, _⟩ => ⟨S_, .i32⟩
  | .hbm, ⟨56, _⟩ => ⟨S69632, .i32⟩
  | .hbm, ⟨57, _⟩ => ⟨S69632, .i32⟩
  | .hbm, ⟨58, _⟩ => ⟨S69632, .i32⟩
  | .hbm, ⟨59, _⟩ => ⟨S69632x1, .i32⟩
  | .hbm, ⟨60, _⟩ => ⟨S69632x256, .f32⟩
  | .hbm, ⟨61, _⟩ => ⟨S69632x1, .f32⟩
  | .hbm, ⟨62, _⟩ => ⟨S69632x256, .f32⟩
  | .hbm, ⟨63, _⟩ => ⟨S69632x256, .f32⟩
  | .hbm, ⟨64, _⟩ => ⟨S_, .f32⟩
  | .hbm, ⟨65, _⟩ => ⟨S4096x256, .f32⟩
  | .hbm, ⟨66, _⟩ => ⟨S69632x1, .i32⟩
  | .hbm, ⟨67, _⟩ => ⟨S4096x256, .f32⟩
  | .hbm, ⟨68, _⟩ => ⟨S1x256, .f32⟩
  | .hbm, ⟨69, _⟩ => ⟨S4096x256, .f32⟩
  | .hbm, ⟨70, _⟩ => ⟨S4096x256, .f32⟩
  | .hbm, ⟨71, _⟩ => ⟨S_, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S_, .i32⟩
  | .hbm, ⟨76, _⟩ => ⟨S69632, .i32⟩
  | .hbm, ⟨77, _⟩ => ⟨S69632, .i1⟩
  | .hbm, ⟨78, _⟩ => ⟨S_, .i32⟩
  | .hbm, ⟨79, _⟩ => ⟨S69632, .i32⟩
  | .hbm, ⟨80, _⟩ => ⟨S69632, .i32⟩
  | .hbm, ⟨81, _⟩ => ⟨S69632, .i32⟩
  | .hbm, ⟨82, _⟩ => ⟨S69632x1, .i32⟩
  | .hbm, ⟨83, _⟩ => ⟨S69632x256, .f32⟩
  | .hbm, ⟨84, _⟩ => ⟨S69632x1, .f32⟩
  | .hbm, ⟨85, _⟩ => ⟨S69632x256, .f32⟩
  | .hbm, ⟨86, _⟩ => ⟨S69632x256, .f32⟩
  | .hbm, ⟨87, _⟩ => ⟨S_, .f32⟩
  | .hbm, ⟨88, _⟩ => ⟨S4096x256, .f32⟩
  | .hbm, ⟨89, _⟩ => ⟨S69632x1, .i32⟩
  | .hbm, ⟨90, _⟩ => ⟨S4096x256, .f32⟩
  | .hbm, ⟨91, _⟩ => ⟨S1x256, .f32⟩
  | .hbm, ⟨92, _⟩ => ⟨S4096x256, .f32⟩
  | .hbm, ⟨93, _⟩ => ⟨S4096x256, .f32⟩
  | .hbm, ⟨94, _⟩ => ⟨S32, .i32⟩
  | .hbm, ⟨95, _⟩ => ⟨S32x128, .i32⟩
  | .hbm, ⟨96, _⟩ => ⟨S4096, .i32⟩
  | .hbm, ⟨97, _⟩ => ⟨S_, .f32⟩
  | .hbm, ⟨98, _⟩ => ⟨S32x256, .f32⟩
  | .hbm, ⟨99, _⟩ => ⟨S4096x1, .i32⟩
  | .hbm, ⟨100, _⟩ => ⟨S32x256, .f32⟩
  | .hbm, ⟨101, _⟩ => ⟨S_, .f32⟩
  | .hbm, ⟨102, _⟩ => ⟨S32x256, .f32⟩
  | .hbm, ⟨103, _⟩ => ⟨S32x256, .f32⟩
  | .local _ .vmem, ⟨0, _⟩ => ⟨S1x16x256x256, .f32⟩
  | .local _ .vmem, ⟨1, _⟩ => ⟨S1x16x256x256, .f32⟩
  | .local _ .vmem, ⟨2, _⟩ => ⟨S1x256x256, .f32⟩
  | .local _ .vmem, ⟨3, _⟩ => ⟨S1x256x256, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S256x256, .f32⟩
  | .local _ .vmem, ⟨12, _⟩ => ⟨S1024x256, .f32⟩
  | .local _ .vmem, ⟨13, _⟩ => ⟨S1024x256, .f32⟩
  | _, _ => ⟨S32x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  reduces_S16x256x256_S256x256 : S16x256x256.Reduces [0] S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  shapeCasts_S32x128x256_S4096x256 : S32x128x256.ShapeCasts S4096x256
  slices_S2x65536_S1x65536_0_0 : S2x65536.Slices ![0, 0] S1x65536
  shapeCasts_S1x65536_S65536 : S1x65536.ShapeCasts S65536
  concatenates_S65536_S4096_S69632_d0 : Shape.Concatenates [S65536, S4096] S69632 0
  slices_S2x65536_S1x65536_1_0 : S2x65536.Slices ![1, 0] S1x65536
  bcast_S_S69632 : S_.BroadcastsInDim S69632 (![] : Fin 0 → Fin S69632.rank)
  bcast_S_S4096 : S_.BroadcastsInDim S4096 (![] : Fin 0 → Fin S4096.rank)
  bcast_S69632_S69632x1_0 : S69632.BroadcastsInDim S69632x1 (![0] : Fin 1 → Fin S69632x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S69632x1_S69632x256_0_1 : S69632x1.BroadcastsInDim S69632x256 (![0, 1] : Fin 2 → Fin S69632x256.rank)
  bcast_S_S4096x256 : S_.BroadcastsInDim S4096x256 (![] : Fin 0 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S32_S32x128_0 : S32.BroadcastsInDim S32x128 (![0] : Fin 1 → Fin S32x128.rank)
  shapeCasts_S32x128_S4096 : S32x128.ShapeCasts S4096
  bcast_S_S32x256 : S_.BroadcastsInDim S32x256 (![] : Fin 0 → Fin S32x256.rank)
  bcast_S4096_S4096x1_0 : S4096.BroadcastsInDim S4096x1 (![0] : Fin 1 → Fin S4096x1.rank)
  gather_S32x256x256_S32x128x1_S32x128x256_2_1_0_0_1_2_11256_wf : GatherDims.WF S32x256x256 S32x128x1 S32x128x256 [2] [1] [0] [1] [0] 2 ![1, 1, 256]
  scatter_S4096_S69632x1_S69632_n_0_0_1_wf : ScatterDims.WF S4096 S69632x1 S69632 [] [0] [0] 1
  gather_S4096_S69632x1_S69632_n_0_n_n_0_1_1_wf : GatherDims.WF S4096 S69632x1 S69632 [] [0] [] [0] [] 1 ![1]
  dot_S1024x256_S256x256_S1024x256_1_0_0_1_n_n_wf : DotDims.WF S1024x256 S256x256 S1024x256 [1] [0] [0] [1] [] []
  gather_S4096x256_S69632x1_S69632x256_1_0_n_n_0_1_1256_wf : GatherDims.WF S4096x256 S69632x1 S69632x256 [1] [0] [] [0] [] 1 ![1, 256]
  scatter_S4096x256_S69632x1_S69632x256_1_0_0_1_wf : ScatterDims.WF S4096x256 S69632x1 S69632x256 [1] [0] [0] 1
  scatter_S32x256_S4096x1_S4096x256_1_0_0_1_wf : ScatterDims.WF S32x256 S4096x1 S4096x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S32x16x256x256.size a
  hwx0_0 : ∀ i : grid0.Coords, EltTy.bits .f32 = 32 ∨ (Rect.block (s := S32x16x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S32x256x256.size a
  hwx0_1 : ∀ i : grid0.Coords, EltTy.bits .f32 = 32 ∨ (Rect.block (s := S32x256x256) S1x256x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S4096x256.size a
  hwx1_2 : ∀ i : grid1.Coords, EltTy.bits .f32 = 32 ∨ (Rect.block (s := S4096x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S4096x256.size a
  hwx2_2 : ∀ i : grid2.Coords, EltTy.bits .f32 = 32 ∨ (Rect.block (s := S4096x256) S1024x256.size (cc2_transform_2 i) (hinb2_2 i)).WholeWords (EltTy.packing .f32)

variable [Facts₀]

def gather_S32x256x256_S32x128x1_S32x128x256_2_1_0_0_1_2_11256 : GatherDims S32x256x256 S32x128x1 S32x128x256 where
  offsetDims := [2]
  collapsedSliceDims := [1]
  operandBatchingDims := [0]
  startIndicesBatchingDims := [0]
  startIndexMap := [1]
  indexVectorDim := 2
  sliceSizes := ![1, 1, 256]
  wf := gather_S32x256x256_S32x128x1_S32x128x256_2_1_0_0_1_2_11256_wf
def scatter_S4096_S69632x1_S69632_n_0_0_1 : ScatterDims S4096 S69632x1 S69632 where
  updateWindowDims := []
  insertedWindowDims := [0]
  scatterDimsToOperandDims := [0]
  indexVectorDim := 1
  wf := scatter_S4096_S69632x1_S69632_n_0_0_1_wf
def gather_S4096_S69632x1_S69632_n_0_n_n_0_1_1 : GatherDims S4096 S69632x1 S69632 where
  offsetDims := []
  collapsedSliceDims := [0]
  operandBatchingDims := []
  startIndicesBatchingDims := []
  startIndexMap := [0]
  indexVectorDim := 1
  sliceSizes := ![1]
  wf := gather_S4096_S69632x1_S69632_n_0_n_n_0_1_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S4096x256_S69632x1_S69632x256_1_0_n_n_0_1_1256 : GatherDims S4096x256 S69632x1 S69632x256 where
  offsetDims := [1]
  collapsedSliceDims := [0]
  operandBatchingDims := []
  startIndicesBatchingDims := []
  startIndexMap := [0]
  indexVectorDim := 1
  sliceSizes := ![1, 256]
  wf := gather_S4096x256_S69632x1_S69632x256_1_0_n_n_0_1_1256_wf
def scatter_S4096x256_S69632x1_S69632x256_1_0_0_1 : ScatterDims S4096x256 S69632x1 S69632x256 where
  updateWindowDims := [1]
  insertedWindowDims := [0]
  scatterDimsToOperandDims := [0]
  indexVectorDim := 1
  wf := scatter_S4096x256_S69632x1_S69632x256_1_0_0_1_wf
def scatter_S32x256_S4096x1_S4096x256_1_0_0_1 : ScatterDims S32x256 S4096x1 S4096x256 where
  updateWindowDims := [1]
  insertedWindowDims := [0]
  scatterDimsToOperandDims := [0]
  indexVectorDim := 1
  wf := scatter_S32x256_S4096x1_S4096x256_1_0_0_1_wf

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v8) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x16x256x256 : Shape := ⟨4, ![32, 16, 256, 256]⟩
abbrev S32x128 : Shape := ⟨2, ![32, 128]⟩
abbrev S2x65536 : Shape := ⟨2, ![2, 65536]⟩
abbrev S256x256 : Shape := ⟨2, ![256, 256]⟩
abbrev S256 : Shape := ⟨1, ![256]⟩
abbrev S_ : Shape := ⟨0, ![]⟩
abbrev S32x256x256 : Shape := ⟨3, ![32, 256, 256]⟩
abbrev S32x128x1 : Shape := ⟨3, ![32, 128, 1]⟩
abbrev S32x128x256 : Shape := ⟨3, ![32, 128, 256]⟩
abbrev S4096x256 : Shape := ⟨2, ![4096, 256]⟩
abbrev S4096 : Shape := ⟨1, ![4096]⟩
abbrev S1x65536 : Shape := ⟨2, ![1, 65536]⟩
abbrev S65536 : Shape := ⟨1, ![65536]⟩
abbrev S69632 : Shape := ⟨1, ![69632]⟩
abbrev S69632x1 : Shape := ⟨2, ![69632, 1]⟩
abbrev S69632x256 : Shape := ⟨2, ![69632, 256]⟩
abbrev S1x256 : Shape := ⟨2, ![1, 256]⟩
abbrev S32 : Shape := ⟨1, ![32]⟩
abbrev S32x256 : Shape := ⟨2, ![32, 256]⟩
abbrev S4096x1 : Shape := ⟨2, ![4096, 1]⟩

abbrev nBuf : Space → Nat
  | .hbm => 108
  | .vmem => 0
  | .smem => 0
  | _ => 0

abbrev bufTy : (tb : Table) → Fin (tcTables nBuf tb) → BufTy
  | .hbm, ⟨0, _⟩ => ⟨S32x16x256x256, .f32⟩
  | .hbm, ⟨1, _⟩ => ⟨S32x128, .i32⟩
  | .hbm, ⟨2, _⟩ => ⟨S2x65536, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S32x256x256, .f32⟩
  | .hbm, ⟨9, _⟩ => ⟨S_, .f32⟩
  | .hbm, ⟨10, _⟩ => ⟨S32x256x256, .f32⟩
  | .hbm, ⟨11, _⟩ => ⟨S32x256x256, .f32⟩
  | .hbm, ⟨12, _⟩ => ⟨S_, .i32⟩
  | .hbm, ⟨13, _⟩ => ⟨S32x128, .i32⟩
  | .hbm, ⟨14, _⟩ => ⟨S32x128, .i1⟩
  | .hbm, ⟨15, _⟩ => ⟨S_, .i32⟩
  | .hbm, ⟨16, _⟩ => ⟨S32x128, .i32⟩
  | .hbm, ⟨17, _⟩ => ⟨S32x128, .i32⟩
  | .hbm, ⟨18, _⟩ => ⟨S32x128, .i32⟩
  | .hbm, ⟨19, _⟩ => ⟨S32x128x1, .i32⟩
  | .hbm, ⟨20, _⟩ => ⟨S32x128x256, .f32⟩
  | .hbm, ⟨21, _⟩ => ⟨S4096x256, .f32⟩
  | .hbm, ⟨22, _⟩ => ⟨S4096, .i32⟩
  | .hbm, ⟨23, _⟩ => ⟨S1x65536, .i32⟩
  | .hbm, ⟨24, _⟩ => ⟨S65536, .i32⟩
  | .hbm, ⟨25, _⟩ => ⟨S69632, .i32⟩
  | .hbm, ⟨26, _⟩ => ⟨S1x65536, .i32⟩
  | .hbm, ⟨27, _⟩ => ⟨S65536, .i32⟩
  | .hbm, ⟨28, _⟩ => ⟨S69632, .i32⟩
  | .hbm, ⟨29, _⟩ => ⟨S_, .f32⟩
  | .hbm, ⟨30, _⟩ => ⟨S69632, .f32⟩
  | .hbm, ⟨31, _⟩ => ⟨S_, .f32⟩
  | .hbm, ⟨32, _⟩ => ⟨S4096, .f32⟩
  | .hbm, ⟨33, _⟩ => ⟨S69632x1, .i32⟩
  | .hbm, ⟨34, _⟩ => ⟨S4096, .f32⟩
  | .hbm, ⟨35, _⟩ => ⟨S4096, .f32⟩
  | .hbm, ⟨36, _⟩ => ⟨S_, .i32⟩
  | .hbm, ⟨37, _⟩ => ⟨S69632, .i32⟩
  | .hbm, ⟨38, _⟩ => ⟨S69632, .i1⟩
  | .hbm, ⟨39, _⟩ => ⟨S_, .i32⟩
  | .hbm, ⟨40, _⟩ => ⟨S69632, .i32⟩
  | .hbm, ⟨41, _⟩ => ⟨S69632, .i32⟩
  | .hbm, ⟨42, _⟩ => ⟨S69632, .i32⟩
  | .hbm, ⟨43, _⟩ => ⟨S69632x1, .i32⟩
  | .hbm, ⟨44, _⟩ => ⟨S69632, .f32⟩
  | .hbm, ⟨45, _⟩ => ⟨S_, .i32⟩
  | .hbm, ⟨46, _⟩ => ⟨S69632, .i32⟩
  | .hbm, ⟨47, _⟩ => ⟨S69632, .i1⟩
  | .hbm, ⟨48, _⟩ => ⟨S_, .i32⟩
  | .hbm, ⟨49, _⟩ => ⟨S69632, .i32⟩
  | .hbm, ⟨50, _⟩ => ⟨S69632, .i32⟩
  | .hbm, ⟨51, _⟩ => ⟨S69632, .i32⟩
  | .hbm, ⟨52, _⟩ => ⟨S69632x1, .i32⟩
  | .hbm, ⟨53, _⟩ => ⟨S69632, .f32⟩
  | .hbm, ⟨54, _⟩ => ⟨S69632, .f32⟩
  | .hbm, ⟨55, _⟩ => ⟨S4096x256, .f32⟩
  | .hbm, ⟨56, _⟩ => ⟨S_, .i32⟩
  | .hbm, ⟨57, _⟩ => ⟨S69632, .i32⟩
  | .hbm, ⟨58, _⟩ => ⟨S69632, .i1⟩
  | .hbm, ⟨59, _⟩ => ⟨S_, .i32⟩
  | .hbm, ⟨60, _⟩ => ⟨S69632, .i32⟩
  | .hbm, ⟨61, _⟩ => ⟨S69632, .i32⟩
  | .hbm, ⟨62, _⟩ => ⟨S69632, .i32⟩
  | .hbm, ⟨63, _⟩ => ⟨S69632x1, .i32⟩
  | .hbm, ⟨64, _⟩ => ⟨S69632x256, .f32⟩
  | .hbm, ⟨65, _⟩ => ⟨S69632x1, .f32⟩
  | .hbm, ⟨66, _⟩ => ⟨S69632x256, .f32⟩
  | .hbm, ⟨67, _⟩ => ⟨S69632x256, .f32⟩
  | .hbm, ⟨68, _⟩ => ⟨S_, .f32⟩
  | .hbm, ⟨69, _⟩ => ⟨S4096x256, .f32⟩
  | .hbm, ⟨70, _⟩ => ⟨S69632x1, .i32⟩
  | .hbm, ⟨71, _⟩ => ⟨S4096x256, .f32⟩
  | .hbm, ⟨72, _⟩ => ⟨S1x256, .f32⟩
  | .hbm, ⟨73, _⟩ => ⟨S4096x256, .f32⟩
  | .hbm, ⟨74, _⟩ => ⟨S4096x256, .f32⟩
  | .hbm, ⟨75, _⟩ => ⟨S_, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S_, .i32⟩
  | .hbm, ⟨80, _⟩ => ⟨S69632, .i32⟩
  | .hbm, ⟨81, _⟩ => ⟨S69632, .i1⟩
  | .hbm, ⟨82, _⟩ => ⟨S_, .i32⟩
  | .hbm, ⟨83, _⟩ => ⟨S69632, .i32⟩
  | .hbm, ⟨84, _⟩ => ⟨S69632, .i32⟩
  | .hbm, ⟨85, _⟩ => ⟨S69632, .i32⟩
  | .hbm, ⟨86, _⟩ => ⟨S69632x1, .i32⟩
  | .hbm, ⟨87, _⟩ => ⟨S69632x256, .f32⟩
  | .hbm, ⟨88, _⟩ => ⟨S69632x1, .f32⟩
  | .hbm, ⟨89, _⟩ => ⟨S69632x256, .f32⟩
  | .hbm, ⟨90, _⟩ => ⟨S69632x256, .f32⟩
  | .hbm, ⟨91, _⟩ => ⟨S_, .f32⟩
  | .hbm, ⟨92, _⟩ => ⟨S4096x256, .f32⟩
  | .hbm, ⟨93, _⟩ => ⟨S69632x1, .i32⟩
  | .hbm, ⟨94, _⟩ => ⟨S4096x256, .f32⟩
  | .hbm, ⟨95, _⟩ => ⟨S1x256, .f32⟩
  | .hbm, ⟨96, _⟩ => ⟨S4096x256, .f32⟩
  | .hbm, ⟨97, _⟩ => ⟨S4096x256, .f32⟩
  | .hbm, ⟨98, _⟩ => ⟨S32, .i32⟩
  | .hbm, ⟨99, _⟩ => ⟨S32x128, .i32⟩
  | .hbm, ⟨100, _⟩ => ⟨S4096, .i32⟩
  | .hbm, ⟨101, _⟩ => ⟨S_, .f32⟩
  | .hbm, ⟨102, _⟩ => ⟨S32x256, .f32⟩
  | .hbm, ⟨103, _⟩ => ⟨S4096x1, .i32⟩
  | .hbm, ⟨104, _⟩ => ⟨S32x256, .f32⟩
  | .hbm, ⟨105, _⟩ => ⟨S_, .f32⟩
  | .hbm, ⟨106, _⟩ => ⟨S32x256, .f32⟩
  | .hbm, ⟨107, _⟩ => ⟨S32x256, .f32⟩
  | _, _ => ⟨S32x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call0_cst : Ref sig .tc := ⟨.hbm, 75, rfl⟩
abbrev main_call0_v0 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]

class Facts₀ : Prop where
  reducesTo_S32x16x256x256_S32x256x256_d1 : S32x16x256x256.ReducesTo [1] S32x256x256
  h_S_ : 0 < S_.numel
  bcast_S_S32x256x256 : S_.BroadcastsInDim S32x256x256 (![] : Fin 0 → Fin S32x256x256.rank)
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  shapeCasts_S32x128x256_S4096x256 : S32x128x256.ShapeCasts S4096x256
  slices_S2x65536_S1x65536_0_0 : S2x65536.Slices ![0, 0] S1x65536
  shapeCasts_S1x65536_S65536 : S1x65536.ShapeCasts S65536
  concatenates_S65536_S4096_S69632_d0 : Shape.Concatenates [S65536, S4096] S69632 0
  slices_S2x65536_S1x65536_1_0 : S2x65536.Slices ![1, 0] S1x65536
  bcast_S_S69632 : S_.BroadcastsInDim S69632 (![] : Fin 0 → Fin S69632.rank)
  bcast_S_S4096 : S_.BroadcastsInDim S4096 (![] : Fin 0 → Fin S4096.rank)
  bcast_S69632_S69632x1_0 : S69632.BroadcastsInDim S69632x1 (![0] : Fin 1 → Fin S69632x1.rank)
  bcast_S69632x1_S69632x256_0_1 : S69632x1.BroadcastsInDim S69632x256 (![0, 1] : Fin 2 → Fin S69632x256.rank)
  bcast_S_S4096x256 : S_.BroadcastsInDim S4096x256 (![] : Fin 0 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S32_S32x128_0 : S32.BroadcastsInDim S32x128 (![0] : Fin 1 → Fin S32x128.rank)
  shapeCasts_S32x128_S4096 : S32x128.ShapeCasts S4096
  bcast_S_S32x256 : S_.BroadcastsInDim S32x256 (![] : Fin 0 → Fin S32x256.rank)
  bcast_S4096_S4096x1_0 : S4096.BroadcastsInDim S4096x1 (![0] : Fin 1 → Fin S4096x1.rank)
  gather_S32x256x256_S32x128x1_S32x128x256_2_1_0_0_1_2_11256_wf : GatherDims.WF S32x256x256 S32x128x1 S32x128x256 [2] [1] [0] [1] [0] 2 ![1, 1, 256]
  scatter_S4096_S69632x1_S69632_n_0_0_1_wf : ScatterDims.WF S4096 S69632x1 S69632 [] [0] [0] 1
  gather_S4096_S69632x1_S69632_n_0_n_n_0_1_1_wf : GatherDims.WF S4096 S69632x1 S69632 [] [0] [] [0] [] 1 ![1]
  dot_S4096x256_S256x256_S4096x256_1_0_0_1_n_n_wf : DotDims.WF S4096x256 S256x256 S4096x256 [1] [0] [0] [1] [] []
  gather_S4096x256_S69632x1_S69632x256_1_0_n_n_0_1_1256_wf : GatherDims.WF S4096x256 S69632x1 S69632x256 [1] [0] [] [0] [] 1 ![1, 256]
  scatter_S4096x256_S69632x1_S69632x256_1_0_0_1_wf : ScatterDims.WF S4096x256 S69632x1 S69632x256 [1] [0] [0] 1
  scatter_S32x256_S4096x1_S4096x256_1_0_0_1_wf : ScatterDims.WF S32x256 S4096x1 S4096x256 [1] [0] [0] 1

variable [Facts₀]

def gather_S32x256x256_S32x128x1_S32x128x256_2_1_0_0_1_2_11256 : GatherDims S32x256x256 S32x128x1 S32x128x256 where
  offsetDims := [2]
  collapsedSliceDims := [1]
  operandBatchingDims := [0]
  startIndicesBatchingDims := [0]
  startIndexMap := [1]
  indexVectorDim := 2
  sliceSizes := ![1, 1, 256]
  wf := gather_S32x256x256_S32x128x1_S32x128x256_2_1_0_0_1_2_11256_wf
def scatter_S4096_S69632x1_S69632_n_0_0_1 : ScatterDims S4096 S69632x1 S69632 where
  updateWindowDims := []
  insertedWindowDims := [0]
  scatterDimsToOperandDims := [0]
  indexVectorDim := 1
  wf := scatter_S4096_S69632x1_S69632_n_0_0_1_wf
def gather_S4096_S69632x1_S69632_n_0_n_n_0_1_1 : GatherDims S4096 S69632x1 S69632 where
  offsetDims := []
  collapsedSliceDims := [0]
  operandBatchingDims := []
  startIndicesBatchingDims := []
  startIndexMap := [0]
  indexVectorDim := 1
  sliceSizes := ![1]
  wf := gather_S4096_S69632x1_S69632_n_0_n_n_0_1_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S4096x256_S69632x1_S69632x256_1_0_n_n_0_1_1256 : GatherDims S4096x256 S69632x1 S69632x256 where
  offsetDims := [1]
  collapsedSliceDims := [0]
  operandBatchingDims := []
  startIndicesBatchingDims := []
  startIndexMap := [0]
  indexVectorDim := 1
  sliceSizes := ![1, 256]
  wf := gather_S4096x256_S69632x1_S69632x256_1_0_n_n_0_1_1256_wf
def scatter_S4096x256_S69632x1_S69632x256_1_0_0_1 : ScatterDims S4096x256 S69632x1 S69632x256 where
  updateWindowDims := [1]
  insertedWindowDims := [0]
  scatterDimsToOperandDims := [0]
  indexVectorDim := 1
  wf := scatter_S4096x256_S69632x1_S69632x256_1_0_0_1_wf
def scatter_S32x256_S4096x1_S4096x256_1_0_0_1 : ScatterDims S32x256 S4096x1 S4096x256 where
  updateWindowDims := [1]
  insertedWindowDims := [0]
  scatterDimsToOperandDims := [0]
  indexVectorDim := 1
  wf := scatter_S32x256_S4096x1_S4096x256_1_0_0_1_wf

class Facts : Prop extends Facts₀ where

variable [Facts]
-- ==== Proof.KRun.lean ====
/-
  The idealized kernel program's run, with its RESULT named.

  The program's entry function is three kernel launches among stretches of host operations. Its buffers'
  contents at the seven segment boundaries are a fold from the launch memory: a host stretch applies its
  operations (`StableHlo.after`), a launch replaces its arrays by what its grid points wrote back and leaves
  every other buffer alone. The last boundary's contents are `W7`. Every weakly fair execution terminates,
  nothing faults, and the final memory holds every unscoped buffer at `W7` — in particular the result
  buffer, which is what this module adds to the frame statement (whose post keeps only the arguments).
-/
import proofs.«121233_j61856118997222_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the entry function terminates without a
    fault; the result buffer ends at the last boundary's contents `W7`, and the seven arguments end as launched.
    The segments, their chaining and the launch are the frame's; the final state is read at one more buffer. -/
theorem run_result : θ_run defs (onTc (τ := τ) (main (F := F))) ⟨m, fun _ => 0, ρ⟩ (fun r => ∀ c : Dev nD,
      r.2.mem ((c.tc : Thread nD τ).loc main_v78) = W7 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v78 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Result

end
-- ==== Proof.Spec.lean ====
/-
  The computation both programs perform, as named functions of arrays.

  A batch of 32 graphs, 128 nodes each (4096 nodes), 65536 directed edges plus one self-loop per node
  (69632 edge slots). From a [32,16,256,256] embedding: the mean over the 16-long axis; per graph, the rows the
  node ids select; a two-layer graph convolution — each layer a dense product with a weight matrix, then for every
  edge slot the source node's row scaled by the edge's normalisation, summed into the destination node's row, plus
  a bias — with a rectifier between the layers; and the mean of each graph's 128 node rows.

  The two programs differ only in HOW the three dense steps are computed (the mean over 16, the two matrix
  products); everything else is the same sequence of host operations on both sides. Those shared stretches are
  named here once — index wrapping, the edge normalisation, one convolution layer's gather / scale / scatter-add /
  bias, the rectifier, the per-graph mean — so that neither side's proof ever opens a gather or a scatter-add: it
  is enough that equal arrays go in.
-/
import proofs.«121233_j61856118997222_1_alg».proof.Proof.Gen.ReferenceIdeal

noncomputable section

namespace Cert.Bridge

open Cert.ReferenceIdeal Cert.ReferenceIdeal.Gen Idealize.ShloMosaic Idealize.ShloMosaic.TcCoe Idealize.SL.Sem

/-- A float array of shape `s`. -/
abbrev FArr (F : FTy → Type) (s : Shape) : Type := (⟨s, .f32⟩ : BufTy).Contents (Elt F)
/-- An array of 32-bit integers of shape `s`. -/
abbrev IArr (F : FTy → Type) (s : Shape) : Type := (⟨s, .i32⟩ : BufTy).Contents (Elt F)

variable {F : FTy → Type} [FloatOps F]

/-- The mean over the 16-long axis, as the host computes it: the sum from zero, divided by 16. -/
def meanOver16 (x : FArr F S32x16x256x256) : FArr F S32x256x256 :=
  Host.divf (Host.reduceAdd x (constant S_ .f32 0x00000000#32) reducesTo_S32x16x256x256_S32x256x256_d1 h_S_)
    (broadcastInDim S32x256x256 ![] bcast_S_S32x256x256 (constant S_ .f32 0x41800000#32))

/-- A dense product of the node rows with a weight matrix, as the host computes it. -/
def dense (x : FArr F S4096x256) (w : FArr F S256x256) : FArr F S4096x256 :=
  Host.dotGeneral dot_S4096x256_S256x256_S4096x256_1_0_0_1_n_n none x w

/-- Node features: per graph, the rows of the pooled embedding that the graph's node ids select (a negative id
    counts from the end, 256 added), the 32 × 128 selected rows laid out as 4096 rows. -/
def nodeRows (pooled : FArr F S32x256x256) (ids : IArr F S32x128) : FArr F S4096x256 :=
  shapeCast _ (Host.gather gather_S32x256x256_S32x128x1_S32x128x256_2_1_0_0_1_2_11256 pooled
    (broadcastInDim S32x128x1 ![0, 1] bcast_S32x128_S32x128x1_0_1
      (select (cmpi .slt ids (broadcastInDim S32x128 ![] bcast_S_S32x128 (constantI S_ 32 0#32)))
        (addi ids (broadcastInDim S32x128 ![] bcast_S_S32x128 (constantI S_ 32 256#32))) ids))) shapeCasts_S32x128x256_S4096x256

/-- The edge slots' source nodes: row 0 of the edge list, then each node once (its self-loop). -/
def sources (edges : IArr F S2x65536) : IArr F S69632 :=
  concatenate S69632 0 [⟨S65536, (shapeCast _ (extractStridedSlice S1x65536 ![0, 0] edges slices_S2x65536_S1x65536_0_0) shapeCasts_S1x65536_S65536)⟩, ⟨S4096, (iotaInDim S4096 32 0)⟩] concatenates_S65536_S4096_S69632_d0

/-- The edge slots' destination nodes: row 1 of the edge list, then each node once. -/
def targets (edges : IArr F S2x65536) : IArr F S69632 :=
  concatenate S69632 0 [⟨S65536, (shapeCast _ (extractStridedSlice S1x65536 ![1, 0] edges slices_S2x65536_S1x65536_1_0) shapeCasts_S1x65536_S65536)⟩, ⟨S4096, (iotaInDim S4096 32 0)⟩] concatenates_S65536_S4096_S69632_d0

/-- A list of node numbers made a column of gather indices: a negative number counts from the end (4096 added). -/
def wrapped (v : IArr F S69632) : IArr F S69632x1 :=
  broadcastInDim S69632x1 ![0] bcast_S69632_S69632x1_0
    (select (cmpi .slt v (broadcastInDim S69632 ![] bcast_S_S69632 (constantI S_ 32 0#32)))
      (addi v (broadcastInDim S69632 ![] bcast_S_S69632 (constantI S_ 32 4096#32))) v)

/-- Each node's in-degree (edge slots ending at it, the self-loop included) to the power −1/2. -/
def invSqrtDegree (dst : IArr F S69632) : FArr F S4096 :=
  Host.rsqrt (Host.scatterAdd scatter_S4096_S69632x1_S69632_n_0_0_1
    (broadcastInDim S4096 ![] bcast_S_S4096 (constant S_ .f32 0x00000000#32))
    (broadcastInDim S69632x1 ![0] bcast_S69632_S69632x1_0 dst)
    (broadcastInDim S69632 ![] bcast_S_S69632 (constant S_ .f32 0x3F800000#32)))

/-- The symmetric normalisation of each edge slot: the product of its two ends' inverse square-root degrees. -/
def edgeNorm (src dst : IArr F S69632) : FArr F S69632 :=
  mulf (Host.gather gather_S4096_S69632x1_S69632_n_0_n_n_0_1_1 (invSqrtDegree dst) (wrapped src))
    (Host.gather gather_S4096_S69632x1_S69632_n_0_n_n_0_1_1 (invSqrtDegree dst) (wrapped dst))

/-- One convolution layer after its dense product `h`: every edge slot takes its source node's row of `h`, scales
    it by the slot's normalisation, and adds it into its destination node's row; then the bias row is added. -/
def aggregate (h : FArr F S4096x256) (src dst : IArr F S69632) (nrm : FArr F S69632) (bias : FArr F S256) : FArr F S4096x256 :=
  addf (Host.scatterAdd scatter_S4096x256_S69632x1_S69632x256_1_0_0_1
      (broadcastInDim S4096x256 ![] bcast_S_S4096x256 (constant S_ .f32 0x00000000#32))
      (broadcastInDim S69632x1 ![0] bcast_S69632_S69632x1_0 dst)
      (mulf (Host.gather gather_S4096x256_S69632x1_S69632x256_1_0_n_n_0_1_1256 h (wrapped src))
        (broadcastInDim S69632x256 ![0, 1] bcast_S69632x1_S69632x256_0_1 (broadcastInDim S69632x1 ![0] bcast_S69632_S69632x1_0 nrm))))
    (broadcastInDim S4096x256 ![0, 1] bcast_S1x256_S4096x256_0_1 (broadcastInDim S1x256 ![1] bcast_S256_S1x256_1 bias))

/-- The rectifier: the maximum with zero, entry by entry. -/
def rectified (x : FArr F S4096x256) : FArr F S4096x256 :=
  maximumf x (broadcastInDim S4096x256 ![] bcast_S_S4096x256 (constant S_ .f32 0x00000000#32))

/-- Each graph's mean node row: the 128 rows of graph `g` (node `n` belongs to graph `n / 128`) summed, over 128. -/
def graphMean (x : FArr F S4096x256) : FArr F S32x256 :=
  Host.divf (Host.scatterAdd scatter_S32x256_S4096x1_S4096x256_1_0_0_1
      (broadcastInDim S32x256 ![] bcast_S_S32x256 (constant S_ .f32 0x00000000#32))
      (broadcastInDim S4096x1 ![0] bcast_S4096_S4096x1_0 (shapeCast _ (broadcastInDim S32x128 ![0] bcast_S32_S32x128_0 (iotaInDim S32 32 0)) shapeCasts_S32x128_S4096))
      x)
    (broadcastInDim S32x256 ![] bcast_S_S32x256 (constant S_ .f32 0x43000000#32))

/-- The whole computation, from the seven argument arrays. -/
def network (emb : FArr F S32x16x256x256) (ids : IArr F S32x128) (edges : IArr F S2x65536)
    (w1 : FArr F S256x256) (b1 : FArr F S256) (w2 : FArr F S256x256) (b2 : FArr F S256) : FArr F S32x256 :=
  graphMean (aggregate (dense (rectified (aggregate (dense (nodeRows (meanOver16 emb) ids) w1)
      (sources edges) (targets edges) (edgeNorm (sources edges) (targets edges)) b1)) w2)
    (sources edges) (targets edges) (edgeNorm (sources edges) (targets edges)) b2)

end Cert.Bridge

end
-- ==== Proof.GlueHost.lean ====
/-
  The kernel program's host stretches compute the named functions.

  Between and after its three launches the kernel program runs the same host operations as the reference. Over ANY
  contents `W` of the buffers when a stretch is entered, the buffers the stretch writes hold afterwards the named
  function of what `W` holds at the buffers it reads, and a buffer the stretch does not write holds what `W` held.
  The first stretch makes the node rows, the edge slots' two ends and their normalisation; the second one
  convolution layer's aggregation and the rectifier; the third the second layer's aggregation and the per-graph
  mean. Nothing here depends on what `W` is: the launches' results enter only through it.
-/
import proofs.«121233_j61856118997222_1_alg».proof.Proof.Spec
import proofs.«121233_j61856118997222_1_alg».proof.Proof.Gen.KernelIdeal.Launch
import Idealize.ShloMosaic.Lib.StableHlo.Run

set_option maxRecDepth 16384

noncomputable section

namespace Cert.Bridge

open Cert.KernelIdeal Cert.KernelIdeal.Gen Idealize.ShloMosaic Idealize.ShloMosaic.TcCoe Idealize.SL.Sem
open Idealize.ShloMosaic.StableHlo

variable {F : FTy → Type} [FloatOps F] (W : Valuation τ sig (Elt F))

/-! ## The first stretch: node rows, edge ends, normalisation -/

theorem stretch1_rows : after hostOps1 W (Proc.devRef .tc main_v8)
    = nodeRows (W (Proc.devRef .tc main_v0)) (W (Proc.devRef .tc main_arg1)) := by
  after_results; rfl

theorem stretch1_sources : after hostOps1 W (Proc.devRef .tc main_v12) = sources (W (Proc.devRef .tc main_arg2)) := by
  after_results; rfl

theorem stretch1_targets : after hostOps1 W (Proc.devRef .tc main_v15) = targets (W (Proc.devRef .tc main_arg2)) := by
  after_results; rfl

theorem stretch1_norm : after hostOps1 W (Proc.devRef .tc main_v35)
    = edgeNorm (sources (W (Proc.devRef .tc main_arg2))) (targets (W (Proc.devRef .tc main_arg2))) := by
  after_results_simp <;> rfl

theorem stretch1_arg3 : after hostOps1 W (Proc.devRef .tc main_arg3) = W (Proc.devRef .tc main_arg3) := by after_results
theorem stretch1_arg4 : after hostOps1 W (Proc.devRef .tc main_arg4) = W (Proc.devRef .tc main_arg4) := by after_results
theorem stretch1_arg5 : after hostOps1 W (Proc.devRef .tc main_arg5) = W (Proc.devRef .tc main_arg5) := by after_results
theorem stretch1_arg6 : after hostOps1 W (Proc.devRef .tc main_arg6) = W (Proc.devRef .tc main_arg6) := by after_results

/-! ## The second stretch: the first layer's aggregation, then the rectifier -/

theorem stretch2_out : after hostOps2_1 (after hostOps2 W) (Proc.devRef .tc main_v53)
    = rectified (aggregate (W (Proc.devRef .tc main_v36)) (W (Proc.devRef .tc main_v12)) (W (Proc.devRef .tc main_v15))
        (W (Proc.devRef .tc main_v35)) (W (Proc.devRef .tc main_arg4))) := by
  after_results_simp <;> rfl

theorem stretch2_v12 : after hostOps2_1 (after hostOps2 W) (Proc.devRef .tc main_v12) = W (Proc.devRef .tc main_v12) := by after_results
theorem stretch2_v15 : after hostOps2_1 (after hostOps2 W) (Proc.devRef .tc main_v15) = W (Proc.devRef .tc main_v15) := by after_results
theorem stretch2_v35 : after hostOps2_1 (after hostOps2 W) (Proc.devRef .tc main_v35) = W (Proc.devRef .tc main_v35) := by after_results
theorem stretch2_arg5 : after hostOps2_1 (after hostOps2 W) (Proc.devRef .tc main_arg5) = W (Proc.devRef .tc main_arg5) := by after_results
theorem stretch2_arg6 : after hostOps2_1 (after hostOps2 W) (Proc.devRef .tc main_arg6) = W (Proc.devRef .tc main_arg6) := by after_results

/-! ## The third stretch: the second layer's aggregation, then the per-graph mean -/

theorem stretch3_out : after hostOps3 W (Proc.devRef .tc main_v78)
    = graphMean (aggregate (W (Proc.devRef .tc main_v54)) (W (Proc.devRef .tc main_v12)) (W (Proc.devRef .tc main_v15))
        (W (Proc.devRef .tc main_v35)) (W (Proc.devRef .tc main_arg6))) := by
  after_results_simp <;> rfl

end Cert.Bridge

end
-- ==== Proof.KValue.lean ====
/-
  The kernel program's result is the network of its seven arguments, GIVEN what each launch leaves in its array.

  The buffers' contents at the program's segment boundaries are a fold from the launch memory (`W0 … W7`). Walking
  it forward: the first launch leaves the pooled embedding in its output array and touches nothing else; the first
  host stretch makes from it the node rows, and from the edge list the edge slots' ends and normalisation; the
  second launch leaves the first dense product; the second stretch aggregates, adds the bias and rectifies; the
  third launch leaves the second dense product; the last stretch aggregates, adds the bias and takes each graph's
  mean. A launch changes only its own arrays and a stretch only the buffers it writes, so the edge slots' ends,
  the normalisation and the later arguments are carried unchanged to where they are read.

  The three facts about the launches' arrays — each is one whole-array function of the arrays the launch read —
  are hypotheses here; they are proved on their own, for arbitrary entry contents, from the grid points' blocks.
-/
import proofs.«121233_j61856118997222_1_alg».proof.Proof.Spec
import proofs.«121233_j61856118997222_1_alg».proof.Proof.GlueHost
import proofs.«121233_j61856118997222_1_alg».proof.Proof.Gen.KernelIdeal.Frame
import Idealize.ShloMosaic.PureOps.Ideal

set_option maxRecDepth 16384

noncomputable section

namespace Cert.Bridge

open Cert.KernelIdeal Cert.KernelIdeal.Gen Idealize.ShloMosaic Idealize.ShloMosaic.TcCoe Idealize.SL.Sem
open Idealize.ShloMosaic.StableHlo

/-- The buffers' contents a launch is entered with, as the launches' proof data take them. -/
abbrev Entry : Type := (c : Dev nD) → (b : Ref sig .tc) → Buf (Elt Ideal) ((c : Thread nD τ).loc b)

/-- What the first launch leaves: the mean over the 16-long axis of the array it read. -/
def PoolFact : Prop := ∀ (V : Entry) (c : Dev nD),
  (dat0 (F := Ideal) V c).arrAt 1 cfg0.N = meanOver16 (V c main_arg0)
/-- What the second launch leaves: the dense product of the two arrays it read. -/
def Dense1Fact : Prop := ∀ (V : Entry) (c : Dev nD),
  (dat1 (F := Ideal) V c).arrAt 2 cfg1.N = dense (V c main_v8) (V c main_arg3)
/-- What the third launch leaves: the dense product of the two arrays it read. -/
def Dense2Fact : Prop := ∀ (V : Entry) (c : Dev nD),
  (dat2 (F := Ideal) V c).arrAt 2 cfg2.N = dense (V c main_v53) (V c main_arg5)

variable (m : (ℓ : Loc nD τ sig) → Buf (Elt Ideal) ℓ) (ρ : Dev nD → PrngReg) (c : Dev nD)

/-! ## After the first launch -/

theorem b1_pooled (hpool : PoolFact) :
    W1 m ρ c (Proc.devRef .tc main_v0) = meanOver16 (m ((c : Thread nD τ).loc main_arg0)) :=
  (W1_arr m ρ c 1).trans (hpool (V0 m ρ) c)

theorem b1_arg1 : W1 m ρ c (Proc.devRef .tc main_arg1) = m ((c : Thread nD τ).loc main_arg1) := W1_of_ne m ρ c main_arg1 (by decide)
theorem b1_arg2 : W1 m ρ c (Proc.devRef .tc main_arg2) = m ((c : Thread nD τ).loc main_arg2) := W1_of_ne m ρ c main_arg2 (by decide)
theorem b1_arg3 : W1 m ρ c (Proc.devRef .tc main_arg3) = m ((c : Thread nD τ).loc main_arg3) := W1_of_ne m ρ c main_arg3 (by decide)
theorem b1_arg4 : W1 m ρ c (Proc.devRef .tc main_arg4) = m ((c : Thread nD τ).loc main_arg4) := W1_of_ne m ρ c main_arg4 (by decide)
theorem b1_arg5 : W1 m ρ c (Proc.devRef .tc main_arg5) = m ((c : Thread nD τ).loc main_arg5) := W1_of_ne m ρ c main_arg5 (by decide)
theorem b1_arg6 : W1 m ρ c (Proc.devRef .tc main_arg6) = m ((c : Thread nD τ).loc main_arg6) := W1_of_ne m ρ c main_arg6 (by decide)

/-! ## After the first host stretch -/

theorem b2_rows (hpool : PoolFact) : W2 m ρ c (Proc.devRef .tc main_v8)
    = nodeRows (meanOver16 (m ((c : Thread nD τ).loc main_arg0))) (m ((c : Thread nD τ).loc main_arg1)) :=
  (stretch1_rows (W1 m ρ c)).trans (by rw [b1_pooled m ρ c hpool, b1_arg1 m ρ c])
theorem b2_src : W2 m ρ c (Proc.devRef .tc main_v12) = sources (m ((c : Thread nD τ).loc main_arg2)) :=
  (stretch1_sources (W1 m ρ c)).trans (by rw [b1_arg2 m ρ c])
theorem b2_dst : W2 m ρ c (Proc.devRef .tc main_v15) = targets (m ((c : Thread nD τ).loc main_arg2)) :=
  (stretch1_targets (W1 m ρ c)).trans (by rw [b1_arg2 m ρ c])
theorem b2_norm : W2 m ρ c (Proc.devRef .tc main_v35)
    = edgeNorm (sources (m ((c : Thread nD τ).loc main_arg2))) (targets (m ((c : Thread nD τ).loc main_arg2))) :=
  (stretch1_norm (W1 m ρ c)).trans (by rw [b1_arg2 m ρ c])
theorem b2_arg3 : W2 m ρ c (Proc.devRef .tc main_arg3) = m ((c : Thread nD τ).loc main_arg3) := (stretch1_arg3 (W1 m ρ c)).trans (b1_arg3 m ρ c)
theorem b2_arg4 : W2 m ρ c (Proc.devRef .tc main_arg4) = m ((c : Thread nD τ).loc main_arg4) := (stretch1_arg4 (W1 m ρ c)).trans (b1_arg4 m ρ c)
theorem b2_arg5 : W2 m ρ c (Proc.devRef .tc main_arg5) = m ((c : Thread nD τ).loc main_arg5) := (stretch1_arg5 (W1 m ρ c)).trans (b1_arg5 m ρ c)
theorem b2_arg6 : W2 m ρ c (Proc.devRef .tc main_arg6) = m ((c : Thread nD τ).loc main_arg6) := (stretch1_arg6 (W1 m ρ c)).trans (b1_arg6 m ρ c)

/-! ## After the second launch -/

theorem b3_dense (hpool : PoolFact) (hd1 : Dense1Fact) : W3 m ρ c (Proc.devRef .tc main_v36)
    = dense (nodeRows (meanOver16 (m ((c : Thread nD τ).loc main_arg0))) (m ((c : Thread nD τ).loc main_arg1)))
        (m ((c : Thread nD τ).loc main_arg3)) :=
  ((W3_arr m ρ c 2).trans (hd1 (V2 m ρ) c)).trans (congrArg₂ dense (b2_rows m ρ c hpool) (b2_arg3 m ρ c))
theorem b3_src : W3 m ρ c (Proc.devRef .tc main_v12) = sources (m ((c : Thread nD τ).loc main_arg2)) := (W3_of_ne m ρ c main_v12 (by decide)).trans (b2_src m ρ c)
theorem b3_dst : W3 m ρ c (Proc.devRef .tc main_v15) = targets (m ((c : Thread nD τ).loc main_arg2)) := (W3_of_ne m ρ c main_v15 (by decide)).trans (b2_dst m ρ c)
theorem b3_norm : W3 m ρ c (Proc.devRef .tc main_v35)
    = edgeNorm (sources (m ((c : Thread nD τ).loc main_arg2))) (targets (m ((c : Thread nD τ).loc main_arg2))) := (W3_of_ne m ρ c main_v35 (by decide)).trans (b2_norm m ρ c)
theorem b3_arg4 : W3 m ρ c (Proc.devRef .tc main_arg4) = m ((c : Thread nD τ).loc main_arg4) := (W3_of_ne m ρ c main_arg4 (by decide)).trans (b2_arg4 m ρ c)
theorem b3_arg5 : W3 m ρ c (Proc.devRef .tc main_arg5) = m ((c : Thread nD τ).loc main_arg5) := (W3_of_ne m ρ c main_arg5 (by decide)).trans (b2_arg5 m ρ c)
theorem b3_arg6 : W3 m ρ c (Proc.devRef .tc main_arg6) = m ((c : Thread nD τ).loc main_arg6) := (W3_of_ne m ρ c main_arg6 (by decide)).trans (b2_arg6 m ρ c)

/-! ## After the second host stretch (the first layer done) -/

/-- The first layer's output, rectified, of the arguments. -/
def layer1 : FArr Ideal Cert.ReferenceIdeal.S4096x256 :=
  rectified (aggregate (dense (nodeRows (meanOver16 (m ((c : Thread nD τ).loc main_arg0))) (m ((c : Thread nD τ).loc main_arg1))) (m ((c : Thread nD τ).loc main_arg3)))
    (sources (m ((c : Thread nD τ).loc main_arg2))) (targets (m ((c : Thread nD τ).loc main_arg2)))
    (edgeNorm (sources (m ((c : Thread nD τ).loc main_arg2))) (targets (m ((c : Thread nD τ).loc main_arg2))))
    (m ((c : Thread nD τ).loc main_arg4)))

theorem b5_layer1 (hpool : PoolFact) (hd1 : Dense1Fact) : W5 m ρ c (Proc.devRef .tc main_v53) = layer1 m c :=
  (stretch2_out (W3 m ρ c)).trans (by
    rw [b3_dense m ρ c hpool hd1, b3_src m ρ c, b3_dst m ρ c, b3_norm m ρ c, b3_arg4 m ρ c]; rfl)
theorem b5_src : W5 m ρ c (Proc.devRef .tc main_v12) = sources (m ((c : Thread nD τ).loc main_arg2)) := (stretch2_v12 (W3 m ρ c)).trans (b3_src m ρ c)
theorem b5_dst : W5 m ρ c (Proc.devRef .tc main_v15) = targets (m ((c : Thread nD τ).loc main_arg2)) := (stretch2_v15 (W3 m ρ c)).trans (b3_dst m ρ c)
theorem b5_norm : W5 m ρ c (Proc.devRef .tc main_v35)
    = edgeNorm (sources (m ((c : Thread nD τ).loc main_arg2))) (targets (m ((c : Thread nD τ).loc main_arg2))) := (stretch2_v35 (W3 m ρ c)).trans (b3_norm m ρ c)
theorem b5_arg5 : W5 m ρ c (Proc.devRef .tc main_arg5) = m ((c : Thread nD τ).loc main_arg5) := (stretch2_arg5 (W3 m ρ c)).trans (b3_arg5 m ρ c)
theorem b5_arg6 : W5 m ρ c (Proc.devRef .tc main_arg6) = m ((c : Thread nD τ).loc main_arg6) := (stretch2_arg6 (W3 m ρ c)).trans (b3_arg6 m ρ c)

/-! ## After the third launch -/

theorem b6_dense (hpool : PoolFact) (hd1 : Dense1Fact) (hd2 : Dense2Fact) : W6 m ρ c (Proc.devRef .tc main_v54)
    = dense (layer1 m c) (m ((c : Thread nD τ).loc main_arg5)) :=
  ((W6_arr m ρ c 2).trans (hd2 (V5 m ρ) c)).trans (congrArg₂ dense (b5_layer1 m ρ c hpool hd1) (b5_arg5 m ρ c))
theorem b6_src : W6 m ρ c (Proc.devRef .tc main_v12) = sources (m ((c : Thread nD τ).loc main_arg2)) := (W6_of_ne m ρ c main_v12 (by decide)).trans (b5_src m ρ c)
theorem b6_dst : W6 m ρ c (Proc.devRef .tc main_v15) = targets (m ((c : Thread nD τ).loc main_arg2)) := (W6_of_ne m ρ c main_v15 (by decide)).trans (b5_dst m ρ c)
theorem b6_norm : W6 m ρ c (Proc.devRef .tc main_v35)
    = edgeNorm (sources (m ((c : Thread nD τ).loc main_arg2))) (targets (m ((c : Thread nD τ).loc main_arg2))) := (W6_of_ne m ρ c main_v35 (by decide)).trans (b5_norm m ρ c)
theorem b6_arg6 : W6 m ρ c (Proc.devRef .tc main_arg6) = m ((c : Thread nD τ).loc main_arg6) := (W6_of_ne m ρ c main_arg6 (by decide)).trans (b5_arg6 m ρ c)

/-! ## After the last host stretch: the result -/

/-- THE KERNEL PROGRAM'S RESULT: the last boundary's contents at the result buffer are the network of the arguments'
    launch contents. -/
theorem kernel_result (hpool : PoolFact) (hd1 : Dense1Fact) (hd2 : Dense2Fact) :
    W7 m ρ c (Proc.devRef .tc main_v78)
      = network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) :=
  (stretch3_out (W6 m ρ c)).trans (by
    rw [b6_dense m ρ c hpool hd1 hd2, b6_src m ρ c, b6_dst m ρ c, b6_norm m ρ c, b6_arg6 m ρ c]; rfl)

end Cert.Bridge

end
-- ==== Proof.RefSide.lean ====
/-
  The reference program's result is the network of its seven arguments.

  The reference is one straight line of host operations, and its run states the result buffer at the operations'
  composed term of the launch contents. That term is, read from the inside out, the mean over the 16-long axis,
  the selected node rows, and twice a dense product followed by the gather / scale / scatter-add / bias of a
  convolution layer, then the per-graph mean: exactly the named functions composed, so the equation holds by
  unfolding the names.
-/
import proofs.«121233_j61856118997222_1_alg».proof.Proof.Spec
import proofs.«121233_j61856118997222_1_alg».proof.Proof.Gen.ReferenceIdeal.Run

noncomputable section

namespace Cert.Bridge

open Cert.ReferenceIdeal Cert.ReferenceIdeal.Gen Idealize.ShloMosaic Idealize.ShloMosaic.TcCoe Idealize.SL.Sem

variable {F : FTy → Type} [FloatOps F]

/-- The composed term of the reference's operations is `network` of the arguments' launch contents. -/
theorem reference_result (m : (ℓ : Loc nD τ sig) → Buf (Elt F) ℓ) (c : Dev nD) :
    Cert.ReferenceIdeal.Value.res_main_v80 m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v80 network graphMean aggregate dense rectified nodeRows meanOver16
    edgeNorm invSqrtDegree wrapped sources targets
  rfl

end Cert.Bridge

end
-- ==== Proof.PoolArray.lean ====
/- The mean over the 16-long axis, from blocks to the array. Region 0 loads one [1,16,256,256] block per grid point,
   sums it over its 16-long axis, multiplies by the word of 1/16 and stores the [1,256,256] result; the 32 points'
   results tile the [32,256,256] array. The reference sums the [32,16,256,256] array over axis 1 from the zero
   word and divides by the splat of the word of 16. On every extended real, infinities included, the product with
   the real 1/16 is the quotient by the real 16 (`Ideal.div_coe`), so at each index (b, s, d) both are one value:
   (Σ_p x (b, p, s, d)) · (1/16) = (0 + Σ_p x (b, p, s, d)) / 16. No finiteness is used. -/
import proofs.«121233_j61856118997222_1_alg».proof.Proof.Gen.KernelIdeal.Frame
import proofs.«121233_j61856118997222_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.Bridge

open Cert.KernelIdeal Cert.KernelIdeal.Gen

/-! ## The two words and the law between a product with 1/16 and a quotient by 16 -/

/-- The word `0x41800000` denotes the real 16. -/
theorem ofBits_sixteen : Ideal.ofBits .f32 0x41800000#32 = ((16 : ℝ) : EReal) := by
  simp [Ideal.ofBits, Ideal.ieee, -EReal.coe_mul]; norm_num

/-- The word `0x3D800000` denotes the dyadic 1/16. -/
theorem ofBits_sixteenth : Ideal.ofBits .f32 0x3D800000#32 = ((1 / 16 : ℝ) : EReal) := by
  simp [Ideal.ofBits, Ideal.ieee, -EReal.coe_mul]; norm_num

/-- On every extended real, infinities included, the product with 1/16 is the quotient by 16 of zero plus it. -/
theorem mean_eq (s : EReal) :
    s * Ideal.ofBits .f32 0x3D800000#32
      = Ideal.div (Ideal.ofBits .f32 0x00000000#32 + s) (Ideal.ofBits .f32 0x41800000#32) := by
  rw [Ideal.ofBits_zero_f32, zero_add, ofBits_sixteen, ofBits_sixteenth, Ideal.div_coe (by norm_num : (16 : ℝ) ≠ 0)]

/-! ## The mean over the 16-long axis as one function of the argument array -/

/-- The mean over axis 1: the sum over that axis from the zero word, divided by the splat of 16. -/
def poolRef (x : FVec Ideal Cert.ReferenceIdeal.S32x16x256x256 .f32) : FVec Ideal Cert.ReferenceIdeal.S32x256x256 .f32 :=
  Host.divf (Host.reduceAdd (F := Ideal) x (constant (F := Ideal) Cert.ReferenceIdeal.S_ .f32 0x00000000#32)
      Cert.ReferenceIdeal.Gen.reducesTo_S32x16x256x256_S32x256x256_d1 Cert.ReferenceIdeal.Gen.h_S_)
    (broadcastInDim Cert.ReferenceIdeal.S32x256x256 ![] Cert.ReferenceIdeal.Gen.bcast_S_S32x256x256
      (constant (F := Ideal) Cert.ReferenceIdeal.S_ .f32 0x41800000#32))

/-- At (b, s, d) it is zero plus the sum over p of x (b, p, s, d), divided by 16. -/
theorem poolRef_apply (x : FVec Ideal Cert.ReferenceIdeal.S32x16x256x256 .f32) (b : Fin 32) (s d : Fin 256) :
    poolRef x (ix3 b s d)
      = Ideal.div (Ideal.ofBits .f32 0x00000000#32 + ∑ k : Fin 16, x (ix4 b k s d)) (Ideal.ofBits .f32 0x41800000#32) := by
  unfold poolRef
  show FloatOps.hostDivf _ _ = _
  rw [Ideal.hostDivf_def]
  refine congrArg₂ Ideal.div ?_ ?_
  · simp only [Host.reduceAdd, Ideal.hostReduceAdd_def]
    rw [Ideal.hostReduceAdd_single Cert.ReferenceIdeal.Gen.reducesTo_S32x16x256x256_S32x256x256_d1 (by decide)]
    refine congrArg₂ (· + ·) rfl (Finset.sum_congr rfl fun k _ => ?_)
    exact congrArg x (funext fun a => Fin.ext (by match a with | ⟨0, _⟩ => rfl | ⟨1, _⟩ => rfl | ⟨2, _⟩ => rfl | ⟨3, _⟩ => rfl))
  · exact (broadcastInDim_apply _ Cert.ReferenceIdeal.Gen.bcast_S_S32x256x256 _ _ (fun a => a.elim0) (fun a => a.elim0)).trans rfl

/-! ## The body's payload at an index -/

/-- The stored block at (0, s, d): the sum over p of the loaded block at (0, p, s, d), times 1/16. -/
theorem pool_payload (x0 : Vec Ideal S1x16x256x256 .f32) (u : Fin 1) (s d : Fin 256) :
    k0_pay1 (F := Ideal) x0 (ix3 u s d)
      = (∑ k : Fin 16, x0 (ix4 (0 : Fin 1) k s d)) * Ideal.ofBits .f32 0x3D800000#32 := by
  unfold k0_pay1
  dsimp only
  refine (shapeCast_ab_1ab_apply _ _ u s d).trans ?_
  rw [mulf_apply]
  refine congrArg₂ (· * ·) ?_ rfl
  refine (Ideal.multiReduction_add_single _ 0x00000000#32 reduces_S16x256x256_S256x256 _ _ (ix2 s d)).trans ?_
  refine Finset.sum_congr rfl fun k _ => ?_
  have hl : reduces_S16x256x256_S256x256.lift (ix2 s d) k = ix3 (k : Fin 16) s d :=
    funext fun a => Fin.ext (by match a with | ⟨0, _⟩ => rfl | ⟨1, _⟩ => rfl | ⟨2, _⟩ => rfl)
  rw [hl]
  exact shapeCast_1abc_abc_apply x0 _ k s d

/-! ## From blocks to the array -/

/-- The zero offsets of a rank-3 block, as a constant function. -/
theorem hz3 : (![0, 0, 0] : Fin 3 → Nat) = fun _ => 0 := funext fun a => by fin_cases a <;> rfl
/-- The zero offsets of a rank-4 block, as a constant function. -/
theorem hz4 : (![0, 0, 0, 0] : Fin 4 → Nat) = fun _ => 0 := funext fun a => by fin_cases a <;> rfl

/-- At every grid point t the input window's block index is (t, 0, 0, 0) and the output window's is (t, 0, 0). -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

variable (V : (c : Dev nD) → (b : Ref sig .tc) → Buf (Elt Ideal) ((c : Thread nD τ).loc b))

/-- What point t writes back is block t of the mean of the argument array: at (0, s, d) the sum over p of the
    argument at (t, p, s, d) times 1/16, which is the quotient by 16 of zero plus that sum. -/
theorem flushed_eq (c : Dev nD) (t : Fin cfg0.N) :
    (dat0 (F := Ideal) V c).flushed 1 t
      = ((cfg0.win 1).blk t).view.read (Elt Ideal) (poolRef (V c main_arg0)) := by
  show (cfg0.win 1).cut (grid0.coords t) ((dat0 (F := Ideal) V c).after 1 t) = _
  rw [after0_1]
  unfold out0_1
  rw [View.canon_unit_zero hz3]
  simp only [View.ld_unit_zero (S := S1x16x256x256) hz4]
  funext j
  obtain ⟨u, s, d, rfl⟩ : ∃ (u : Fin 1) (s d : Fin 256), j = ix3 u s d := ⟨j 0, j 1, j 2, eq_ix3 j⟩
  show k0_pay1 (F := Ideal) (iblk0 V c 0 t) (ix3 u s d) = poolRef (V c main_arg0) (((cfg0.win 1).blk t).view.emb (ix3 u s d))
  refine (pool_payload (iblk0 V c 0 t) u s d).trans ?_
  have hN : cfg0.N = 32 := N_0
  have ht : t.val < 32 := hN ▸ t.isLt
  obtain ⟨e0, e1, e2, e3, f0, f1, f2⟩ := idx_facts t
  have hu : u.val = 0 := by omega
  have hemb : ((cfg0.win 1).blk t).view.emb (ix3 u s d) = ix3 (⟨t.val, ht⟩ : Fin 32) s d := by
    funext a; apply Fin.ext
    match a with
    | ⟨0, _⟩ => show win0_1.index t (0 : Fin 3) * 1 + 1 * u.val = t.val; omega
    | ⟨1, _⟩ => show win0_1.index t (1 : Fin 3) * 256 + 1 * s.val = s.val; omega
    | ⟨2, _⟩ => show win0_1.index t (2 : Fin 3) * 256 + 1 * d.val = d.val; omega
  rw [hemb, poolRef_apply]
  refine (mean_eq _).trans ?_
  refine congrArg (fun z => Ideal.div (Ideal.ofBits .f32 0x00000000#32 + z) (Ideal.ofBits .f32 0x41800000#32))
    (Finset.sum_congr rfl fun k _ => ?_)
  show V c main_arg0 (((cfg0.win 0).blk t).view.emb (ix4 (0 : Fin 1) k s d)) = V c main_arg0 (ix4 (⟨t.val, ht⟩ : Fin 32) k s d)
  refine congrArg _ (funext fun a => Fin.ext ?_)
  match a with
  | ⟨0, _⟩ => show win0_0.index t (0 : Fin 4) * 1 + 1 * 0 = t.val; omega
  | ⟨1, _⟩ => show win0_0.index t (1 : Fin 4) * 16 + 1 * k.val = k.val; omega
  | ⟨2, _⟩ => show win0_0.index t (2 : Fin 4) * 256 + 1 * s.val = s.val; omega
  | ⟨3, _⟩ => show win0_0.index t (3 : Fin 4) * 256 + 1 * d.val = d.val; omega

/-- An index of the array is in point t's block iff each coordinate is in the block's range on its axis. -/
theorem mem_blk (t : Fin cfg0.N) (i : S32x256x256.Idx) :
    i ∈ ((cfg0.win 1).blk t).view.set ↔ ∀ a : Fin 3, win0_1.index t a * S1x256x256.size a ≤ (i a).val
      ∧ (i a).val < win0_1.index t a * S1x256x256.size a + S1x256x256.size a := by
  show i ∈ ((View.whole main_v0).slice (win0_1.rect t)).set ↔ _
  rw [View.set_slice_whole, Rect.mem_set_unit]
  exact Iff.rfl

/-- Row b of the array lies in the block of point b, which is written back. -/
theorem cover (i : S32x256x256.Idx) :
    ∃ t : Fin cfg0.N, (cfg0.win 1).flush t = true ∧ i ∈ ((cfg0.win 1).blk t).view.set := by
  have hN : cfg0.N = 32 := N_0
  have h0 : (i 0).val < 32 := (i 0).isLt
  have h1 : (i 1).val < 256 := (i 1).isLt
  have h2 : (i 2).val < 256 := (i 2).isLt
  obtain ⟨t, ht⟩ : ∃ t : Fin cfg0.N, t.val = (i 0).val := ⟨⟨(i 0).val, by rw [hN]; exact h0⟩, rfl⟩
  refine ⟨t, flush0_1 t, ?_⟩
  rw [mem_blk]
  obtain ⟨-, -, -, -, f0, f1, f2⟩ := idx_facts t
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 256 ≤ (i 1).val ∧ (i 1).val < win0_1.index t (1 : Fin 3) * 256 + 256
    omega
  | ⟨2, _⟩ =>
    show win0_1.index t (2 : Fin 3) * 256 ≤ (i 2).val ∧ (i 2).val < win0_1.index t (2 : Fin 3) * 256 + 256
    omega

/-- The array of means after the region's last point: the mean over axis 1 of the argument array as the region
    finds it. -/
theorem pool_array (c : Dev nD) :
    (dat0 (F := Ideal) V c).arrAt 1 cfg0.N
      = Host.divf (Host.reduceAdd (F := Ideal) (V c main_arg0) (constant (F := Ideal) Cert.ReferenceIdeal.S_ .f32 0x00000000#32)
            Cert.ReferenceIdeal.Gen.reducesTo_S32x16x256x256_S32x256x256_d1 Cert.ReferenceIdeal.Gen.h_S_)
          (broadcastInDim Cert.ReferenceIdeal.S32x256x256 ![] Cert.ReferenceIdeal.Gen.bcast_S_S32x256x256
            (constant (F := Ideal) Cert.ReferenceIdeal.S_ .f32 0x41800000#32)) :=
  (dat0 (F := Ideal) V c).arrAt_eq_of_cover 1 (poolRef (V c main_arg0)) (fun t _ => flushed_eq V c t) cover

end Cert.Bridge

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.MatmulArray.lean ====
/-
  The two matrix products, from blocks to the whole array.

  Each product region multiplies a [4096, 256] array by a [256, 256] weight array, 1024 rows at a grid point: point t
  takes rows 1024·t … 1024·t + 1023 of the left array and the whole weight array, and writes the same rows of the
  result. Entry (r, h) of a block's product is Σ_k x[r,k] · w[k,h]; entry (R, h) of the product of the whole arrays is
  Σ_k X[R,k] · W[k,h]; block row r of point t is array row 1024·t + r, so the blocks are the restrictions of the one
  whole-array product, and the four blocks cover every row.
-/
import proofs.«121233_j61856118997222_1_alg».proof.Proof.Gen.KernelIdeal.Frame
import proofs.«121233_j61856118997222_1_alg».proof.Proof.Gen.ReferenceIdeal
import proofs.«121233_j61856118997222_1_alg».proof.Proof.LibDotAt
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx
open Idealize.ShloMosaic.Pipeline (Dat)
open scoped BigOperators

namespace Cert.Bridge.MatmulBlocks

open Cert.KernelIdeal Cert.KernelIdeal.Gen

/-! ## One entry of a product -/

/-- The dimension numbers of a block's product: [1024, 256] by [256, 256], contracting the left operand's second axis
    with the right operand's first. -/
abbrev blockDims : DotDims S1024x256 S256x256 S1024x256 := Cert.KernelIdeal.dot_S1024x256_S256x256_S1024x256_1_0_0_1_n_n

/-- The dimension numbers of the whole arrays' product: [4096, 256] by [256, 256], the same axes. -/
abbrev arrayDims : DotDims Cert.ReferenceIdeal.S4096x256 Cert.ReferenceIdeal.S256x256 Cert.ReferenceIdeal.S4096x256 :=
  Cert.ReferenceIdeal.dot_S4096x256_S256x256_S4096x256_1_0_0_1_n_n

/-- The left operand's row is the output's row. -/
theorem block_l0 (j : S1024x256.Idx) (q : blockDims.contr.Idx) : (blockDims.lhsIdx j q 0).val = (j 0).val := by
  unfold DotDims.lhsIdx
  rw [dif_neg (show ¬(0 : Fin S1024x256.rank) ∈ blockDims.lhsBatch by decide), dif_pos (show (0 : Fin S1024x256.rank) ∈ blockDims.lhsNonContracting by decide)]
  rfl
/-- The left operand's column is the contraction index. -/
theorem block_l1 (j : S1024x256.Idx) (q : blockDims.contr.Idx) : (blockDims.lhsIdx j q 1).val = (q ⟨0, by decide⟩).val :=
  blockDims.lhsIdx_val_of_single rfl j q
/-- The right operand's row is the contraction index. -/
theorem block_r0 (j : S1024x256.Idx) (q : blockDims.contr.Idx) : (blockDims.rhsIdx j q 0).val = (q ⟨0, by decide⟩).val :=
  blockDims.rhsIdx_val_of_single rfl j q
/-- The right operand's column is the output's column. -/
theorem block_r1 (j : S1024x256.Idx) (q : blockDims.contr.Idx) : (blockDims.rhsIdx j q 1).val = (j 1).val := by
  unfold DotDims.rhsIdx
  rw [dif_neg (show ¬(1 : Fin S256x256.rank) ∈ blockDims.rhsBatch by decide), dif_pos (show (1 : Fin S256x256.rank) ∈ blockDims.rhsNonContracting by decide)]
  rfl

/-- The same four facts for the whole arrays' dimension numbers. -/
theorem array_l0 (j : Cert.ReferenceIdeal.S4096x256.Idx) (q : arrayDims.contr.Idx) : (arrayDims.lhsIdx j q 0).val = (j 0).val := by
  unfold DotDims.lhsIdx
  rw [dif_neg (show ¬(0 : Fin Cert.ReferenceIdeal.S4096x256.rank) ∈ arrayDims.lhsBatch by decide), dif_pos (show (0 : Fin Cert.ReferenceIdeal.S4096x256.rank) ∈ arrayDims.lhsNonContracting by decide)]
  rfl
theorem array_l1 (j : Cert.ReferenceIdeal.S4096x256.Idx) (q : arrayDims.contr.Idx) : (arrayDims.lhsIdx j q 1).val = (q ⟨0, by decide⟩).val :=
  arrayDims.lhsIdx_val_of_single rfl j q
theorem array_r0 (j : Cert.ReferenceIdeal.S4096x256.Idx) (q : arrayDims.contr.Idx) : (arrayDims.rhsIdx j q 0).val = (q ⟨0, by decide⟩).val :=
  arrayDims.rhsIdx_val_of_single rfl j q
theorem array_r1 (j : Cert.ReferenceIdeal.S4096x256.Idx) (q : arrayDims.contr.Idx) : (arrayDims.rhsIdx j q 1).val = (j 1).val := by
  unfold DotDims.rhsIdx
  rw [dif_neg (show ¬(1 : Fin Cert.ReferenceIdeal.S256x256.rank) ∈ arrayDims.rhsBatch by decide), dif_pos (show (1 : Fin Cert.ReferenceIdeal.S256x256.rank) ∈ arrayDims.rhsNonContracting by decide)]
  rfl

/-- Entry (p, q) of what the first product's body stores: the shape cast to the same shape and the two narrowings are
    the identity on exact values, and the product into the zero accumulator is the sum over the contracted axis. -/
theorem pay1_ix2 (x : Vec Ideal S1024x256 .f32) (w : Vec Ideal S256x256 .f32) (p : Fin 1024) (q : Fin 256) :
    k1_pay1 (F := Ideal) x w (ix2 p q) = ∑ k : Fin 256, x (ix2 p k) * w (ix2 k q) := by
  unfold k1_pay1
  rw [shapeCast_self]
  exact Cert.LibDotAt.matmul_zero_ix2 (M := 1024) (K := 256) (N := 256) blockDims rfl rfl block_l0 block_l1 block_r0 block_r1 none _ _ p q

/-- The second product's body stores the same function of its blocks. -/
theorem pay2_ix2 (x : Vec Ideal S1024x256 .f32) (w : Vec Ideal S256x256 .f32) (p : Fin 1024) (q : Fin 256) :
    k2_pay1 (F := Ideal) x w (ix2 p q) = ∑ k : Fin 256, x (ix2 p k) * w (ix2 k q) := by
  unfold k2_pay1
  rw [shapeCast_self]
  exact Cert.LibDotAt.matmul_zero_ix2 (M := 1024) (K := 256) (N := 256) blockDims rfl rfl block_l0 block_l1 block_r0 block_r1 none _ _ p q

/-- The whole arrays' product, as ONE function of the two arrays. -/
abbrev product (X : FVec Ideal Cert.ReferenceIdeal.S4096x256 .f32) (W : FVec Ideal Cert.ReferenceIdeal.S256x256 .f32) :
    FVec Ideal Cert.ReferenceIdeal.S4096x256 .f32 :=
  Host.dotGeneral (F := Ideal) Cert.ReferenceIdeal.dot_S4096x256_S256x256_S4096x256_1_0_0_1_n_n none X W

/-- Entry (R, h) of the whole arrays' product. -/
theorem product_ix2 (X : FVec Ideal Cert.ReferenceIdeal.S4096x256 .f32) (W : FVec Ideal Cert.ReferenceIdeal.S256x256 .f32)
    (R : Fin 4096) (h : Fin 256) :
    product X W (ix2 R h) = ∑ k : Fin 256, X (ix2 R k) * W (ix2 k h) := by
  show Host.dotGeneral (F := Ideal) arrayDims none X W (ix2 R h) = _
  simp only [Host.dotGeneral]
  exact Cert.LibDotAt.dotGeneral_ix2 (M := 4096) (K := 256) (N := 256) arrayDims rfl rfl array_l0 array_l1 array_r0 array_r1 none _ _ _ R h

/-- The offset of a whole-buffer access. -/
theorem origin : (![0, 0] : Fin 2 → Nat) = fun _ => 0 := funext fun a => by fin_cases a <;> rfl

/-! ## Product 1: from blocks to the array -/

/-- The windows' block indices of product 1, decided over its four points: the left and the result windows' blocks
    are at block row t, the weight window's block is block (0, 0), and there are four points. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 4 :=
  (by decide +kernel : ∀ t : Fin grid1.N, _)

/-- Entry j of a block's product is entry i of the whole arrays' product, when the block's rows are the left array's
    rows from row `base` on, the weight block is the weight array, and i is j moved down by `base` rows. -/
theorem pay1_eq_product (x : Vec Ideal S1024x256 .f32) (w : Vec Ideal S256x256 .f32)
    (X : FVec Ideal S4096x256 .f32) (W : FVec Ideal S256x256 .f32) (base : Nat)
    (hx : ∀ (p : Fin 1024) (k : Fin 256) (R : Fin 4096), R.val = base + p.val → x (ix2 p k) = X (ix2 R k))
    (hw : ∀ (k q : Fin 256), w (ix2 k q) = W (ix2 k q))
    (j : S1024x256.Idx) (i : S4096x256.Idx) (h0 : (i 0).val = base + (j 0).val) (h1 : (i 1).val = (j 1).val) :
    k1_pay1 (F := Ideal) x w j = product X W i := by
  obtain ⟨p, q, rfl⟩ : ∃ (p : Fin 1024) (q : Fin 256), j = ix2 p q := ⟨j 0, j 1, eq_ix2 j⟩
  obtain ⟨R, h, rfl⟩ : ∃ (R : Fin 4096) (h : Fin 256), i = ix2 R h := ⟨i 0, i 1, eq_ix2 i⟩
  obtain rfl : h = q := Fin.ext h1
  rw [pay1_ix2, product_ix2]
  exact Finset.sum_congr rfl fun k _ => by rw [hx p k R h0, hw k h]

section
variable (V : (c : Dev nD) → (b : Ref sig .tc) → Buf (Elt Ideal) ((c : Thread nD τ).loc b))

/-- The left window's block at point t is rows 1024·t … 1024·t + 1023 of the left array. -/
theorem left1_apply (c : Dev nD) (t : Fin cfg1.N) (p : Fin 1024) (k : Fin 256) (R : Fin 4096) (hR : R.val = t.val * 1024 + p.val) :
    (iblk1 (F := Ideal) V c 0 t : Vec Ideal S1024x256 .f32) (ix2 p k) = (V c main_v8 : S4096x256.Idx → Elt Ideal .f32) (ix2 R k) := by
  obtain ⟨e0, e1, -⟩ := blocks1 t
  unfold iblk1
  rw [View.read_apply]
  show V c main_v8 _ = V c main_v8 _
  congr 1
  funext a; apply Fin.ext
  match a with
  | ⟨0, _⟩ => show win1_0.index t (0 : Fin 2) * 1024 + 1 * p.val = R.val; omega
  | ⟨1, _⟩ => show win1_0.index t (1 : Fin 2) * 256 + 1 * k.val = k.val; omega

/-- The weight window's block at every point is the whole weight array. -/
theorem right1_apply (c : Dev nD) (t : Fin cfg1.N) (k q : Fin 256) :
    (iblk1 (F := Ideal) V c 1 t : Vec Ideal S256x256 .f32) (ix2 k q) = (V c main_arg3 : S256x256.Idx → Elt Ideal .f32) (ix2 k q) := by
  obtain ⟨-, -, e2, e3, -⟩ := blocks1 t
  unfold iblk1
  rw [View.read_apply]
  show V c main_arg3 _ = V c main_arg3 _
  congr 1
  funext a; apply Fin.ext
  match a with
  | ⟨0, _⟩ => show win1_1.index t (0 : Fin 2) * 256 + 1 * k.val = k.val; omega
  | ⟨1, _⟩ => show win1_1.index t (1 : Fin 2) * 256 + 1 * q.val = q.val; omega

/-- What point t writes back is block t of the whole arrays' product. -/
theorem flushed1_eq (c : Dev nD) (t : Fin cfg1.N) :
    (dat1 (F := Ideal) V c).flushed 2 t = ((cfg1.win 2).blk t).view.read (Elt Ideal) (product (V c main_v8) (V c main_arg3)) := by
  show (cfg1.win 2).cut (grid1.coords t) ((dat1 (F := Ideal) V c).after 2 t) = _
  rw [after1_2]
  unfold out1_2
  rw [View.canon_unit_zero origin]
  simp only [View.ld_unit_zero (S := S1024x256) origin, View.ld_unit_zero (S := S256x256) origin]
  obtain ⟨-, -, -, -, e4, e5, -⟩ := blocks1 t
  funext j
  show k1_pay1 (F := Ideal) (iblk1 V c 0 t) (iblk1 V c 1 t) j = product (V c main_v8) (V c main_arg3) (((cfg1.win 2).blk t).view.emb j)
  refine pay1_eq_product _ _ _ _ (t.val * 1024) (left1_apply V c t) (right1_apply V c t) j _ ?_ ?_
  · show win1_2.index t (0 : Fin 2) * 1024 + 1 * (j 0).val = t.val * 1024 + (j 0).val; omega
  · show win1_2.index t (1 : Fin 2) * 256 + 1 * (j 1).val = (j 1).val; omega

/-- An index of the result array is in point t's block iff each coordinate is in the block's range on its axis. -/
theorem mem_rows1 (t : Fin cfg1.N) (i : S4096x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v36).slice (win1_2.rect t)).set ↔ _
  rw [View.set_slice_whole, Rect.mem_set_unit]
  exact Iff.rfl

/-- Every index of the result array is in some point's block: row R is in the block of point R / 1024. -/
theorem cover1 (i : S4096x256.Idx) : ∃ t : Fin cfg1.N, (cfg1.win 2).flush t = true ∧ i ∈ ((cfg1.win 2).blk t).view.set := by
  have hi0 : (i 0).val < 4096 := (i 0).isLt
  have hi1 : (i 1).val < 256 := (i 1).isLt
  have hN : cfg1.N = 4 := N_1
  have ht : (⟨(i 0).val / 1024, by omega⟩ : Fin cfg1.N).val = (i 0).val / 1024 := rfl
  generalize (⟨(i 0).val / 1024, by omega⟩ : Fin cfg1.N) = t at ht
  obtain ⟨-, -, -, -, e4, e5, -⟩ := blocks1 t
  refine ⟨t, flush1_2 t, ?_⟩
  rw [mem_rows1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 256 ≤ (i 1).val ∧ (i 1).val < win1_2.index t (1 : Fin 2) * 256 + 256; omega

end

/-! ## Product 2: from blocks to the array -/

/-- The windows' block indices of product 2, decided over its four points: the left and the result windows' blocks
    are at block row t, the weight window's block is block (0, 0), and there are four points. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 4 :=
  (by decide +kernel : ∀ t : Fin grid2.N, _)

/-- Entry j of a block's product is entry i of the whole arrays' product, when the block's rows are the left array's
    rows from row `base` on, the weight block is the weight array, and i is j moved down by `base` rows. -/
theorem pay2_eq_product (x : Vec Ideal S1024x256 .f32) (w : Vec Ideal S256x256 .f32)
    (X : FVec Ideal S4096x256 .f32) (W : FVec Ideal S256x256 .f32) (base : Nat)
    (hx : ∀ (p : Fin 1024) (k : Fin 256) (R : Fin 4096), R.val = base + p.val → x (ix2 p k) = X (ix2 R k))
    (hw : ∀ (k q : Fin 256), w (ix2 k q) = W (ix2 k q))
    (j : S1024x256.Idx) (i : S4096x256.Idx) (h0 : (i 0).val = base + (j 0).val) (h1 : (i 1).val = (j 1).val) :
    k2_pay1 (F := Ideal) x w j = product X W i := by
  obtain ⟨p, q, rfl⟩ : ∃ (p : Fin 1024) (q : Fin 256), j = ix2 p q := ⟨j 0, j 1, eq_ix2 j⟩
  obtain ⟨R, h, rfl⟩ : ∃ (R : Fin 4096) (h : Fin 256), i = ix2 R h := ⟨i 0, i 1, eq_ix2 i⟩
  obtain rfl : h = q := Fin.ext h1
  rw [pay2_ix2, product_ix2]
  exact Finset.sum_congr rfl fun k _ => by rw [hx p k R h0, hw k h]

section
variable (V : (c : Dev nD) → (b : Ref sig .tc) → Buf (Elt Ideal) ((c : Thread nD τ).loc b))

/-- The left window's block at point t is rows 1024·t … 1024·t + 1023 of the left array. -/
theorem left2_apply (c : Dev nD) (t : Fin cfg2.N) (p : Fin 1024) (k : Fin 256) (R : Fin 4096) (hR : R.val = t.val * 1024 + p.val) :
    (iblk2 (F := Ideal) V c 0 t : Vec Ideal S1024x256 .f32) (ix2 p k) = (V c main_v53 : S4096x256.Idx → Elt Ideal .f32) (ix2 R k) := by
  obtain ⟨e0, e1, -⟩ := blocks2 t
  unfold iblk2
  rw [View.read_apply]
  show V c main_v53 _ = V c main_v53 _
  congr 1
  funext a; apply Fin.ext
  match a with
  | ⟨0, _⟩ => show win2_0.index t (0 : Fin 2) * 1024 + 1 * p.val = R.val; omega
  | ⟨1, _⟩ => show win2_0.index t (1 : Fin 2) * 256 + 1 * k.val = k.val; omega

/-- The weight window's block at every point is the whole weight array. -/
theorem right2_apply (c : Dev nD) (t : Fin cfg2.N) (k q : Fin 256) :
    (iblk2 (F := Ideal) V c 1 t : Vec Ideal S256x256 .f32) (ix2 k q) = (V c main_arg5 : S256x256.Idx → Elt Ideal .f32) (ix2 k q) := by
  obtain ⟨-, -, e2, e3, -⟩ := blocks2 t
  unfold iblk2
  rw [View.read_apply]
  show V c main_arg5 _ = V c main_arg5 _
  congr 1
  funext a; apply Fin.ext
  match a with
  | ⟨0, _⟩ => show win2_1.index t (0 : Fin 2) * 256 + 1 * k.val = k.val; omega
  | ⟨1, _⟩ => show win2_1.index t (1 : Fin 2) * 256 + 1 * q.val = q.val; omega

/-- What point t writes back is block t of the whole arrays' product. -/
theorem flushed2_eq (c : Dev nD) (t : Fin cfg2.N) :
    (dat2 (F := Ideal) V c).flushed 2 t = ((cfg2.win 2).blk t).view.read (Elt Ideal) (product (V c main_v53) (V c main_arg5)) := by
  show (cfg2.win 2).cut (grid2.coords t) ((dat2 (F := Ideal) V c).after 2 t) = _
  rw [after2_2]
  unfold out2_2
  rw [View.canon_unit_zero origin]
  simp only [View.ld_unit_zero (S := S1024x256) origin, View.ld_unit_zero (S := S256x256) origin]
  obtain ⟨-, -, -, -, e4, e5, -⟩ := blocks2 t
  funext j
  show k2_pay1 (F := Ideal) (iblk2 V c 0 t) (iblk2 V c 1 t) j = product (V c main_v53) (V c main_arg5) (((cfg2.win 2).blk t).view.emb j)
  refine pay2_eq_product _ _ _ _ (t.val * 1024) (left2_apply V c t) (right2_apply V c t) j _ ?_ ?_
  · show win2_2.index t (0 : Fin 2) * 1024 + 1 * (j 0).val = t.val * 1024 + (j 0).val; omega
  · show win2_2.index t (1 : Fin 2) * 256 + 1 * (j 1).val = (j 1).val; omega

/-- An index of the result array is in point t's block iff each coordinate is in the block's range on its axis. -/
theorem mem_rows2 (t : Fin cfg2.N) (i : S4096x256.Idx) :
    i ∈ ((cfg2.win 2).blk t).view.set ↔ ∀ a : Fin 2, win2_2.index t a * S1024x256.size a ≤ (i a).val ∧ (i a).val < win2_2.index t a * S1024x256.size a + S1024x256.size a := by
  show i ∈ ((View.whole main_v54).slice (win2_2.rect t)).set ↔ _
  rw [View.set_slice_whole, Rect.mem_set_unit]
  exact Iff.rfl

/-- Every index of the result array is in some point's block: row R is in the block of point R / 1024. -/
theorem cover2 (i : S4096x256.Idx) : ∃ t : Fin cfg2.N, (cfg2.win 2).flush t = true ∧ i ∈ ((cfg2.win 2).blk t).view.set := by
  have hi0 : (i 0).val < 4096 := (i 0).isLt
  have hi1 : (i 1).val < 256 := (i 1).isLt
  have hN : cfg2.N = 4 := N_2
  have ht : (⟨(i 0).val / 1024, by omega⟩ : Fin cfg2.N).val = (i 0).val / 1024 := rfl
  generalize (⟨(i 0).val / 1024, by omega⟩ : Fin cfg2.N) = t at ht
  obtain ⟨-, -, -, -, e4, e5, -⟩ := blocks2 t
  refine ⟨t, flush2_2 t, ?_⟩
  rw [mem_rows2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 256 ≤ (i 1).val ∧ (i 1).val < win2_2.index t (1 : Fin 2) * 256 + 256; omega

end

end Cert.Bridge.MatmulBlocks

/-! ## The two result arrays -/

namespace Cert.Bridge

open Cert.KernelIdeal Cert.KernelIdeal.Gen Cert.Bridge.MatmulBlocks

/-- The result array of product 1 after its four points: the product of the whole left array by the weight array. -/
theorem mm1_array (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S4096x256_S256x256_S4096x256_1_0_0_1_n_n none (V c main_v8) (V c main_arg3) :=
  (dat1 (F := Ideal) V c).arrAt_eq_of_cover 2 (product (V c main_v8) (V c main_arg3)) (fun t _ => flushed1_eq V c t) (cover1)

/-- The result array of product 2 after its four points: the product of the whole left array by the weight array. -/
theorem mm2_array (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32) Cert.ReferenceIdeal.dot_S4096x256_S256x256_S4096x256_1_0_0_1_n_n none (V c main_v53) (V c main_arg5) :=
  (dat2 (F := Ideal) V c).arrAt_eq_of_cover 2 (product (V c main_v53) (V c main_arg5)) (fun t _ => flushed2_eq V c t) (cover2)

end Cert.Bridge

end
-- ==== Proof.lean ====
/-
  The certificate's five claims.

  The idealized kernel program and the idealized reference compute one function of their seven argument arrays:
  the network of Proof/Spec.lean. The reference does so as a single line of host operations
  (`Cert.Bridge.reference_result`). The kernel program does so as three launches among host stretches: each launch
  leaves in its output array one whole-array function of the arrays it read — the mean over the 16-long axis as a
  sum times the exact dyadic 1/16, where the host divides the sum by 16; and twice a matrix product computed
  1024 rows at a time, where the host forms it whole — and the host stretches between them are the reference's
  own operations (`Cert.Bridge.kernel_result`). At the ideal instance a division by 16 is the product with 1/16 on
  every extended real and a matrix product's entry is the same finite sum however its rows are blocked, so no
  hypothesis on the inputs is used: the precondition is never opened.

  The frames of the two kernel programs are the generated ones; the reference's frame is its run with the result
  dropped; the idealization rewrote nothing, so `preserves` has nothing to state.
-/
import proofs.«121233_j61856118997222_1_alg».proof.Defs
import proofs.«121233_j61856118997222_1_alg».proof.Proof.Gen.Kernel
import proofs.«121233_j61856118997222_1_alg».proof.Proof.Gen.Kernel.Frame
import proofs.«121233_j61856118997222_1_alg».proof.Proof.Gen.KernelIdeal
import proofs.«121233_j61856118997222_1_alg».proof.Proof.Gen.KernelIdeal.Frame
import proofs.«121233_j61856118997222_1_alg».proof.Proof.Gen.ReferenceIdeal
import proofs.«121233_j61856118997222_1_alg».proof.Proof.Gen.Pre_finite_inputs
import proofs.«121233_j61856118997222_1_alg».proof.Proof.Gen.ReferenceIdeal.Run
import proofs.«121233_j61856118997222_1_alg».proof.Proof.KRun
import proofs.«121233_j61856118997222_1_alg».proof.Proof.KValue
import proofs.«121233_j61856118997222_1_alg».proof.Proof.RefSide
import proofs.«121233_j61856118997222_1_alg».proof.Proof.PoolArray
import proofs.«121233_j61856118997222_1_alg».proof.Proof.MatmulArray

noncomputable section

namespace Cert.Proof

open Idealize.ShloMosaic Idealize.ShloMosaic.TcCoe Idealize.SL.Sem

/-- The first launch leaves the mean over the 16-long axis. -/
theorem pool_fact : Cert.Bridge.PoolFact := fun V c => Cert.Bridge.pool_array V c
/-- The second launch leaves the dense product with the first weight matrix. -/
theorem dense1_fact : Cert.Bridge.Dense1Fact := fun V c => Cert.Bridge.mm1_array V c
/-- The third launch leaves the dense product with the second weight matrix. -/
theorem dense2_fact : Cert.Bridge.Dense2Fact := fun V c => Cert.Bridge.mm2_array V c

theorem frame_kernel : Cert.frame_Kernel := fun m ρ _ => Cert.Kernel.Gen.frame m ρ

theorem frame_kernel_ideal : Cert.frame_KernelIdeal := fun m ρ _ => Cert.KernelIdeal.Gen.frame m ρ

/-- The reference's run, its statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result buffer at the network of the
    arguments: the kernel program by the walk through its segment boundaries, the reference by its composed term. -/
theorem algebraic : Cert.algebraic_KernelIdeal_ReferenceIdeal := by
  intro m ρ m' ρ' _ hagree
  refine ⟨fun c => Cert.Bridge.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Bridge.kernel_result m ρ c pool_fact dense1_fact dense2_fact), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.Bridge.reference_result, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
